-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128 : Shape := ⟨2, ![64, 128]⟩
abbrev S128x64 : Shape := ⟨2, ![128, 64]⟩
abbrev S64x4096 : Shape := ⟨2, ![64, 4096]⟩
abbrev S4096x128 : Shape := ⟨2, ![4096, 128]⟩
abbrev S4096x4096 : Shape := ⟨2, ![4096, 4096]⟩
abbrev S4096 : Shape := ⟨1, ![4096]⟩
abbrev S_ : Shape := ⟨0, ![]⟩

class Facts : Prop where
  bcast_S_S64x128 : S_.BroadcastsInDim S64x128 (![] : Fin 0 → Fin S64x128.rank)
  reducesTo_S64x128_S_d0_1 : S64x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x4096 : S_.BroadcastsInDim S64x4096 (![] : Fin 0 → Fin S64x4096.rank)
  reducesTo_S64x4096_S_d0_1 : S64x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x4096 .f32) (main_arg5 : FVec F S4096x128 .f32) (main_arg6 : FVec F S4096 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x128 .f32 := Host.absf main_arg5
  let main_cst_8 : FVec F S_ .f32 := constant S_ .f32 0x7F800000#32
  let main_v25 : FVec F S4096x128 .f32 := broadcastInDim S4096x128 ![] bcast_S_S4096x128 main_cst_8
  let main_v26 : IVec S4096x128 1 := cmpf .olt main_v24 main_v25
  let main_c_9 : IVec S_ 1 := constantI S_ 1 1#1
  let main_v27 : IVec S_ 1 := (fun x v => Host.reduce IntOp.andi x v reducesTo_S4096x128_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S64x128 .f32) (main_arg1 : FVec F S128x64 .f32) (main_arg2 : FVec F S64x4096 .f32) (main_arg3 : FVec F S4096x128 .f32) (main_arg4 : FVec F S4096x4096 .f32) (main_arg5 : FVec F S4096x128 .f32) (main_arg6 : FVec F S4096 .f32) : IVec S_ 1 :=
  let main_v0 : FVec F S64x128 .f32 := Host.absf main_arg0
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  let main_c : IVec S_ 1 := constantI S_ 1 1#1
  let main_v3 : IVec S_ 1 := (fun x v => Host.reduce IntOp.andi x v reducesTo_S64x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg4 main_arg5 main_arg6 main_v13 main_v16
-- ==== Kernel.lean ====
abbrev S64x128 : Shape := ⟨2, ![64, 128]⟩
abbrev S128x64 : Shape := ⟨2, ![128, 64]⟩
abbrev S64x4096 : Shape := ⟨2, ![64, 4096]⟩
abbrev S4096x128 : Shape := ⟨2, ![4096, 128]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S512x128 : Shape := ⟨2, ![512, 128]⟩
abbrev S512x4096 : Shape := ⟨2, ![512, 4096]⟩
abbrev S1x512 : Shape := ⟨2, ![1, 512]⟩
abbrev S64x512 : Shape := ⟨2, ![64, 512]⟩
abbrev S128x512 : Shape := ⟨2, ![128, 512]⟩
abbrev S4096x512 : Shape := ⟨2, ![4096, 512]⟩

abbrev nBuf : Space → Nat
  | .hbm => 16
  | .vmem => 13
  | .smem => 0
  | _ => 0

abbrev bufTy : (tb : Table) → Fin (tcTables nBuf tb) → BufTy
  | .hbm, ⟨0, _⟩ => ⟨S64x128, .f32⟩
  | .hbm, ⟨1, _⟩ => ⟨S128x64, .f32⟩
  | .hbm, ⟨2, _⟩ => ⟨S64x4096, .f32⟩
  | .hbm, ⟨3, _⟩ => ⟨S4096x128, .f32⟩
  | .hbm, ⟨4, _⟩ => ⟨S4096x4096, .f32⟩
  | .hbm, ⟨5, _⟩ => ⟨S4096x128, .f32⟩
  | .hbm, ⟨6, _⟩ => ⟨S4096, .f32⟩
  | .hbm, ⟨7, _⟩ => ⟨S_, .f32⟩
  | .hbm, ⟨8, _⟩ => ⟨S128x64, .f32⟩
  | .hbm, ⟨9, _⟩ => ⟨S128x64, .f32⟩
  | .hbm, ⟨10, _⟩ => ⟨S_, .f32⟩
  | .hbm, ⟨11, _⟩ => ⟨S128x64, .f32⟩
  | .hbm, ⟨12, _⟩ => ⟨S128x64, .f32⟩
  | .hbm, ⟨13, _⟩ => ⟨S64x128, .f32⟩
  | .hbm, ⟨14, _⟩ => ⟨S1x4096, .f32⟩
  | .hbm, ⟨15, _⟩ => ⟨S64x4096, .f32⟩
  | .local _ .vmem, ⟨0, _⟩ => ⟨S64x128, .f32⟩
  | .local _ .vmem, ⟨1, _⟩ => ⟨S64x128, .f32⟩
  | .local _ .vmem, ⟨2, _⟩ => ⟨S64x4096, .f32⟩
  | .local _ .vmem, ⟨3, _⟩ => ⟨S512x128, .f32⟩
  | .local _ .vmem, ⟨4, _⟩ => ⟨S512x128, .f32⟩
  | .local _ .vmem, ⟨5, _⟩ => ⟨S512x4096, .f32⟩
  | .local _ .vmem, ⟨6, _⟩ => ⟨S512x4096, .f32⟩
  | .local _ .vmem, ⟨7, _⟩ => ⟨S512x128, .f32⟩
  | .local _ .vmem, ⟨8, _⟩ => ⟨S512x128, .f32⟩
  | .local _ .vmem, ⟨9, _⟩ => ⟨S1x512, .f32⟩
  | .local _ .vmem, ⟨10, _⟩ => ⟨S1x512, .f32⟩
  | .local _ .vmem, ⟨11, _⟩ => ⟨S64x512, .f32⟩
  | .local _ .vmem, ⟨12, _⟩ => ⟨S64x512, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S128x64 : S_.BroadcastsInDim S128x64 (![] : Fin 0 → Fin S128x64.rank)
  transposes_S128x64_S64x128_1_0 : S128x64.Transposes [1, 0] S64x128
  shapeCasts_S4096_S1x4096 : S4096.ShapeCasts S1x4096
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  shapeCasts_S64x128_S64x128 : S64x128.ShapeCasts S64x128
  inb_S64x4096_S64x4096_0_0 : ∀ a, (![0, 0] : Fin 2 → Nat) a + S64x4096.size a ≤ S64x4096.size a
  h_S64x4096 : 0 < S64x4096.numel
  inb_S512x128_S512x128_0_0 : ∀ a, (![0, 0] : Fin 2 → Nat) a + S512x128.size a ≤ S512x128.size a
  h_S512x128 : 0 < S512x128.numel
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S512x128_p1_0_S128x512 : S512x128.Transposes [1, 0] S128x512
  transposes_S512x4096_p1_0_S4096x512 : S512x4096.Transposes [1, 0] S4096x512
  broadcasts_S1x512_S64x512 : S1x512.Broadcasts S64x512
  inb_S64x512_S64x512_0_0 : ∀ a, (![0, 0] : Fin 2 → Nat) a + S64x512.size a ≤ S64x512.size a
  h_S64x512 : 0 < S64x512.numel
  dot_S64x128_S128x512_S64x512_1_0_0_1_n_n_wf : DotDims.WF S64x128 S128x512 S64x512 [1] [0] [0] [1] [] []
  dot_S64x4096_S4096x512_S64x512_1_0_0_1_n_n_wf : DotDims.WF S64x4096 S4096x512 S64x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S64x128.size a
  hwx0_0 : ∀ i : grid0.Coords, EltTy.bits .f32 = 32 ∨ (Rect.block (s := S64x128) S64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .f32 = 32 ∨ (Rect.block (s := S4096x4096) S512x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S4096x128.size a
  hwx0_5 : ∀ i : grid0.Coords, EltTy.bits .f32 = 32 ∨ (Rect.block (s := S4096x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x512.size a ≤ S64x4096.size a
  hwx0_7 : ∀ i : grid0.Coords, EltTy.bits .f32 = 32 ∨ (Rect.block (s := S64x4096) S64x512.size (cc0_transform_7 i) (hinb0_7 i)).WholeWords (EltTy.packing .f32)

variable [Facts₀]

def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf
def dot_S64x4096_S4096x512_S64x512_1_0_0_1_n_n : DotDims S64x4096 S4096x512 S64x512 where
  lhsContracting := [1]
  rhsContracting := [0]
  lhsNonContracting := [0]
  rhsNonContracting := [1]
  lhsBatch := []
  rhsBatch := []
  wf := dot_S64x4096_S4096x512_S64x512_1_0_0_1_n_n_wf

abbrev win0_0 : Pipeline.Window sig grid0 :=
  Pipeline.Window.ofSpec (Memref.whole main_arg0) S64x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S64x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x128 : Shape := ⟨2, ![64, 128]⟩
abbrev S128x64 : Shape := ⟨2, ![128, 64]⟩
abbrev S64x4096 : Shape := ⟨2, ![64, 4096]⟩
abbrev S4096x128 : Shape := ⟨2, ![4096, 128]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S128x64, .f32⟩
  | .hbm, ⟨2, _⟩ => ⟨S64x4096, .f32⟩
  | .hbm, ⟨3, _⟩ => ⟨S4096x128, .f32⟩
  | .hbm, ⟨4, _⟩ => ⟨S4096x4096, .f32⟩
  | .hbm, ⟨5, _⟩ => ⟨S4096x128, .f32⟩
  | .hbm, ⟨6, _⟩ => ⟨S4096, .f32⟩
  | .hbm, ⟨7, _⟩ => ⟨S_, .f32⟩
  | .hbm, ⟨8, _⟩ => ⟨S128x64, .f32⟩
  | .hbm, ⟨9, _⟩ => ⟨S128x64, .f32⟩
  | .hbm, ⟨10, _⟩ => ⟨S_, .f32⟩
  | .hbm, ⟨11, _⟩ => ⟨S128x64, .f32⟩
  | .hbm, ⟨12, _⟩ => ⟨S128x64, .f32⟩
  | .hbm, ⟨13, _⟩ => ⟨S64x4096, .f32⟩
  | .hbm, ⟨14, _⟩ => ⟨S64x4096, .f32⟩
  | .hbm, ⟨15, _⟩ => ⟨S64x4096, .f32⟩
  | .hbm, ⟨16, _⟩ => ⟨S64x4096, .f32⟩
  | .hbm, ⟨17, _⟩ => ⟨S64x4096, .f32⟩
  | .hbm, ⟨18, _⟩ => ⟨S1x4096, .f32⟩
  | .hbm, ⟨19, _⟩ => ⟨S64x4096, .f32⟩
  | .hbm, ⟨20, _⟩ => ⟨S64x4096, .f32⟩
  | .hbm, ⟨21, _⟩ => ⟨S_, .f32⟩
  | .hbm, ⟨22, _⟩ => ⟨S64x4096, .f32⟩
  | .hbm, ⟨23, _⟩ => ⟨S64x4096, .f32⟩
  | .hbm, ⟨24, _⟩ => ⟨S64x4096, .f32⟩
  | .hbm, ⟨25, _⟩ => ⟨S_, .f32⟩
  | .hbm, ⟨26, _⟩ => ⟨S64x4096, .f32⟩
  | .hbm, ⟨27, _⟩ => ⟨S64x4096, .f32⟩
  | .hbm, ⟨28, _⟩ => ⟨S64x4096, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S128x64 : S_.BroadcastsInDim S128x64 (![] : Fin 0 → Fin S128x64.rank)
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  bcast_S_S64x4096 : S_.BroadcastsInDim S64x4096 (![] : Fin 0 → Fin S64x4096.rank)
  dot_S64x128_S4096x128_S64x4096_1_1_0_0_n_n_wf : DotDims.WF S64x128 S4096x128 S64x4096 [1] [1] [0] [0] [] []
  dot_S64x4096_S4096x4096_S64x4096_1_1_0_0_n_n_wf : DotDims.WF S64x4096 S4096x4096 S64x4096 [1] [1] [0] [0] [] []
  dot_S128x64_S4096x128_S64x4096_0_1_1_0_n_n_wf : DotDims.WF S128x64 S4096x128 S64x4096 [0] [1] [1] [0] [] []

variable [Facts₀]

def dot_S64x128_S4096x128_S64x4096_1_1_0_0_n_n : DotDims S64x128 S4096x128 S64x4096 where
  lhsContracting := [1]
  rhsContracting := [1]
  lhsNonContracting := [0]
  rhsNonContracting := [0]
  lhsBatch := []
  rhsBatch := []
  wf := dot_S64x128_S4096x128_S64x4096_1_1_0_0_n_n_wf
def dot_S64x4096_S4096x4096_S64x4096_1_1_0_0_n_n : DotDims S64x4096 S4096x4096 S64x4096 where
  lhsContracting := [1]
  rhsContracting := [1]
  lhsNonContracting := [0]
  rhsNonContracting := [0]
  lhsBatch := []
  rhsBatch := []
  wf := dot_S64x4096_S4096x4096_S64x4096_1_1_0_0_n_n_wf
def dot_S128x64_S4096x128_S64x4096_0_1_1_0_n_n : DotDims S128x64 S4096x128 S64x4096 where
  lhsContracting := [0]
  rhsContracting := [1]
  lhsNonContracting := [1]
  rhsNonContracting := [0]
  lhsBatch := []
  rhsBatch := []
  wf := dot_S128x64_S4096x128_S64x4096_0_1_1_0_n_n_wf

class Facts : Prop extends Facts₀ where

variable [Facts]
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibTransposedProduct.lean ====
/-
  A matrix product whose right factor is given by its rows, for any extents a, k, b on the extended reals.

  The right factor arrives as a `[b, k]` matrix and is transposed to `[k, b]` before a plain product
  `[a, k] × [k, b] → [a, b]` (the left operand's last axis contracted with the right operand's first) into a zero
  accumulator. Entry `(i, j)` of the result is then the sum over `e : Fin k` of `lhs (i, e) * rhs (j, e)`: row `i` of
  the left factor against row `j` of the untransposed right factor. A change of float format on the way in is the
  identity on the extended reals, so the factors may be of any float formats.
-/
import proofs.«155331_j37580963840555_1_alg».proof.Proof.LibRowMax

noncomputable section

namespace Cert.LibTransposedProduct

open Idealize.ShloMosaic Idealize.ShloMosaic.ValueIdx

variable {a k b : ℕ}

/-- The product of `lhs : [a, k]` with the transpose of `rhs : [b, k]`, into a zero accumulator, at `(i, j)`: the sum
    over `e` of `lhs (i, e) * rhs (j, e)`. -/
theorem matmul_transposed_apply {φ₁ φ₂ : FTy}
    (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![b, k]⟩ φ₂)
    (ht : (⟨2, ![b, k]⟩ : Shape).Transposes [1, 0] ⟨2, ![k, b]⟩) (i : Fin a) (j : Fin b) :
    FloatOps.matmul (Cert.LibRowMax.plainDims a k b wf) prec lhs (transpose ⟨2, ![k, b]⟩ [1, 0] rhs ht)
        (constant ⟨2, ![a, b]⟩ .f32 0x00000000#32) (ix2 i j)
      = ∑ e : Fin k, lhs (ix2 i e) * rhs (ix2 j e) :=
  (Cert.LibRowMax.matmul_plain_apply wf prec lhs (transpose ⟨2, ![k, b]⟩ [1, 0] rhs ht) i j).trans
    (Finset.sum_congr rfl fun e _ => congrArg (lhs (ix2 i e) * ·) (transpose_ix2_apply rhs ht e j))

end Cert.LibTransposedProduct

end
-- ==== Proof.Reservoir.lean ====
/-
  One step of an echo state network's reservoir, as one function of its seven arrays, entry by entry.

  For batch row `p` and reservoir unit `n` the pre-activation is

      (Σₑ u(p,e)·W_in(n,e)  +  Σₑ x(p,e)·W_res(n,e))  +  Σₑ y(e,p)·W_out(n,e)  +  b(n),

  where `y(e,p) = y_last(e,p)·1 + 0` is the teacher signal as it is fed back (scaled by one and shifted by zero, both
  kept as the float words the programs spell), and the new state is `0 + 1·tanh(pre-activation)`: the leak rate of the
  network is zero, so nothing of the old state survives but a term `0·x(p,n)`, which is zero on the extended reals
  whatever `x(p,n)` is, an infinity included (`leak_term`).
  The sums are over the extended reals; the three groups are added in this order, and no law beyond `0·a = 0` is
  used, so nothing here asks the arrays to be finite.
-/
import Idealize.ShloMosaic.PureOps.Ideal.Laws
import Idealize.ShloMosaic.Lib.ValueIdx

noncomputable section

namespace Cert.Reservoir

open Idealize.ShloMosaic Idealize.ShloMosaic.ValueIdx

/-- The float word of `0.0`, as an extended real. -/
abbrev zeroLit : EReal := Ideal.ofBits .f32 0x00000000#32
/-- The float word of `1.0`, as an extended real (never evaluated: both programs spell the same word). -/
abbrev oneLit : EReal := Ideal.ofBits .f32 0x3F800000#32

/-- The teacher signal as fed back, at output unit `o` and batch row `p`: scaled by one and shifted by zero. -/
def teacher (yl : (⟨2, ![128, 64]⟩ : Shape).Idx → EReal) (o : Fin 128) (p : Fin 64) : EReal :=
  yl (ix2 o p) * oneLit + zeroLit

/-- The pre-activation of reservoir unit `n` for batch row `p`: input drive, recurrent drive and teacher feedback,
    added in this order, then the bias. -/
def preact (u : (⟨2, ![64, 128]⟩ : Shape).Idx → EReal) (yl : (⟨2, ![128, 64]⟩ : Shape).Idx → EReal)
    (x : (⟨2, ![64, 4096]⟩ : Shape).Idx → EReal) (win : (⟨2, ![4096, 128]⟩ : Shape).Idx → EReal)
    (wres : (⟨2, ![4096, 4096]⟩ : Shape).Idx → EReal) (wout : (⟨2, ![4096, 128]⟩ : Shape).Idx → EReal)
    (bias : (⟨1, ![4096]⟩ : Shape).Idx → EReal) (p : Fin 64) (n : Fin 4096) : EReal :=
  (((∑ e : Fin 128, u (ix2 p e) * win (ix2 n e)) + (∑ e : Fin 4096, x (ix2 p e) * wres (ix2 n e)))
      + (∑ e : Fin 128, teacher yl e p * wout (ix2 n e)))
    + bias (ix1 n)

/-- The new reservoir state: `0 + 1 · tanh` of the pre-activation, at every batch row and unit. -/
def newState (u : (⟨2, ![64, 128]⟩ : Shape).Idx → EReal) (yl : (⟨2, ![128, 64]⟩ : Shape).Idx → EReal)
    (x : (⟨2, ![64, 4096]⟩ : Shape).Idx → EReal) (win : (⟨2, ![4096, 128]⟩ : Shape).Idx → EReal)
    (wres : (⟨2, ![4096, 4096]⟩ : Shape).Idx → EReal) (wout : (⟨2, ![4096, 128]⟩ : Shape).Idx → EReal)
    (bias : (⟨1, ![4096]⟩ : Shape).Idx → EReal) : (⟨2, ![64, 4096]⟩ : Shape).Idx → EReal :=
  fun i => zeroLit + oneLit * Ideal.tanh (preact u yl x win wres wout bias (i 0) (i 1))

/-- With a leak rate of zero the old state enters as `0 · a`, which is `0` for every extended real `a`. -/
theorem leak_term (a r : EReal) : zeroLit * a + r = zeroLit + r := by
  show Ideal.ofBits .f32 0x00000000#32 * a + r = Ideal.ofBits .f32 0x00000000#32 + r
  rw [Ideal.ofBits_zero_f32, zero_mul]

end Cert.Reservoir

end
-- ==== Proof.Tile.lean ====
/-
  What the kernel body computes for one tile of 512 reservoir units, entry by entry.

  The body holds the whole input matrix `u` (64 × 128), the transposed teacher signal (64 × 128) and the whole old state
  `x` (64 × 4096), and 512 rows of each weight matrix together with the matching 512 bias entries as one row. It
  transposes each block of weight rows and multiplies on the left by the matching matrix into a zero accumulator, so
  entry `(p, q)` of each product is a row of the left matrix against row `q` of the block of weights; the three products
  are added in the order input, recurrent, teacher; the bias row is repeated down the 64 batch rows and added; and the
  result is `0 + 1 · tanh` of that. The roundings on the way into the products are the identity on the extended reals.
-/
import proofs.«155331_j37580963840555_1_alg».proof.Proof.Gen.KernelIdeal.Skeleton
import proofs.«155331_j37580963840555_1_alg».proof.Proof.LibTransposedProduct
import proofs.«155331_j37580963840555_1_alg».proof.Proof.Reservoir
import Idealize.ShloMosaic.Lib.ValueLayout

noncomputable section

namespace Cert.Reservoir.Tile

open Cert.KernelIdeal Cert.KernelIdeal.Gen
open Idealize.ShloMosaic Idealize.ShloMosaic.ValueIdx Cert.Reservoir

/-- A block of 512 rows of 128 weights against the 64 × 128 left matrix: at `(p, q)`, row `p` against row `q`. -/
theorem narrow_product (l : FVec Ideal S64x128 .f32) (w : FVec Ideal S512x128 .f32) (p : Fin 64) (q : Fin 512) :
    FloatOps.matmul (F := Ideal) dot_S64x128_S128x512_S64x512_1_0_0_1_n_n none (truncf .bf16 l bitsLt_bf16_f32)
        (transpose S128x512 [1, 0] (truncf .bf16 w bitsLt_bf16_f32) transposes_S512x128_p1_0_S128x512)
        (constant S64x512 .f32 0x00000000#32) (ix2 p q)
      = ∑ e : Fin 128, l (ix2 p e) * w (ix2 q e) :=
  Cert.LibTransposedProduct.matmul_transposed_apply (φ₁ := .bf16) (φ₂ := .bf16)
    dot_S64x128_S128x512_S64x512_1_0_0_1_n_n_wf none (truncf .bf16 l bitsLt_bf16_f32)
    (truncf .bf16 w bitsLt_bf16_f32) transposes_S512x128_p1_0_S128x512 p q

/-- A block of 512 rows of 4096 recurrent weights against the 64 × 4096 old state. -/
theorem wide_product (l : FVec Ideal S64x4096 .f32) (w : FVec Ideal S512x4096 .f32) (p : Fin 64) (q : Fin 512) :
    FloatOps.matmul (F := Ideal) dot_S64x4096_S4096x512_S64x512_1_0_0_1_n_n none (truncf .bf16 l bitsLt_bf16_f32)
        (transpose S4096x512 [1, 0] (truncf .bf16 w bitsLt_bf16_f32) transposes_S512x4096_p1_0_S4096x512)
        (constant S64x512 .f32 0x00000000#32) (ix2 p q)
      = ∑ e : Fin 4096, l (ix2 p e) * w (ix2 q e) :=
  Cert.LibTransposedProduct.matmul_transposed_apply (φ₁ := .bf16) (φ₂ := .bf16)
    dot_S64x4096_S4096x512_S64x512_1_0_0_1_n_n_wf none (truncf .bf16 l bitsLt_bf16_f32)
    (truncf .bf16 w bitsLt_bf16_f32) transposes_S512x4096_p1_0_S4096x512 p q

/-- THE TILE: what the body stores at `(p, q)` of its 64 × 512 output block, from its seven loaded blocks. -/
theorem payload_apply (x0 : FVec Ideal S64x128 .f32) (x1 : FVec Ideal S64x128 .f32) (x2 : FVec Ideal S64x4096 .f32)
    (x3 : FVec Ideal S512x128 .f32) (x4 : FVec Ideal S512x4096 .f32) (x5 : FVec Ideal S512x128 .f32)
    (x6 : FVec Ideal S1x512 .f32) (p : Fin 64) (q : Fin 512) :
    k0_pay1 (F := Ideal) x0 x1 x2 x3 x4 x5 x6 (ix2 p q)
      = zeroLit + oneLit * Ideal.tanh
          ((((∑ e : Fin 128, x0 (ix2 p e) * x3 (ix2 q e)) + (∑ e : Fin 4096, x2 (ix2 p e) * x4 (ix2 q e)))
              + (∑ e : Fin 128, x1 (ix2 p e) * x5 (ix2 q e)))
            + x6 (ix2 (0 : Fin 1) q)) := by
  unfold k0_pay1
  rw [shapeCast_self, shapeCast_self]
  show zeroLit + oneLit * Ideal.tanh
      (((FloatOps.matmul (F := Ideal) dot_S64x128_S128x512_S64x512_1_0_0_1_n_n none (truncf .bf16 x0 bitsLt_bf16_f32)
            (transpose S128x512 [1, 0] (truncf .bf16 x3 bitsLt_bf16_f32) transposes_S512x128_p1_0_S128x512)
            (constant S64x512 .f32 0x00000000#32) (ix2 p q)
          + FloatOps.matmul (F := Ideal) dot_S64x4096_S4096x512_S64x512_1_0_0_1_n_n none (truncf .bf16 x2 bitsLt_bf16_f32)
            (transpose S4096x512 [1, 0] (truncf .bf16 x4 bitsLt_bf16_f32) transposes_S512x4096_p1_0_S4096x512)
            (constant S64x512 .f32 0x00000000#32) (ix2 p q))
        + FloatOps.matmul (F := Ideal) dot_S64x128_S128x512_S64x512_1_0_0_1_n_n none (truncf .bf16 x1 bitsLt_bf16_f32)
            (transpose S128x512 [1, 0] (truncf .bf16 x5 bitsLt_bf16_f32) transposes_S512x128_p1_0_S128x512)
            (constant S64x512 .f32 0x00000000#32) (ix2 p q))
        + broadcastTo S64x512 x6 broadcasts_S1x512_S64x512 (ix2 p q)) = _
  rw [narrow_product x0 x3 p q, wide_product x2 x4 p q, narrow_product x1 x5 p q,
    broadcastTo_1b_ab_apply x6 broadcasts_S1x512_S64x512 p q]

end Cert.Reservoir.Tile

end
-- ==== Proof.Columns.lean ====
/-
  From the tiles to the whole array: after the run the kernel's result array holds the reservoir step of the
  arrays it was launched with.

  The grid has eight points. At point `t` the body sees the whole of `u`, of the transposed teacher signal and of `x`
  (their block index is `(0, 0)` at every point), rows `512·t … 512·t + 511` of each weight matrix, and columns
  `512·t … 512·t + 511` of the bias laid out as one row; it writes columns `512·t … 512·t + 511` of the 64 × 4096 result.
  So entry `(p, q)` of the tile written at `t` is entry `(p, 512·t + q)` of the reservoir step (`tile_eq`: the
  tile's sums are the step's sums term by term, each block entry read where the array holds it), the eight tiles cover
  every column (column `n` lies in tile `n / 512`), and the array after the run is the reservoir step (`final`).
  Two of the arrays the body sees were written by the host just before: the teacher signal scaled by one, shifted by
  zero and transposed (`teacher_T`), and the bias as a one-row matrix (`bias_row`).
-/
import proofs.«155331_j37580963840555_1_alg».proof.Proof.Gen.KernelIdeal.Value
import proofs.«155331_j37580963840555_1_alg».proof.Proof.Tile
import proofs.«155331_j37580963840555_1_alg».proof.Proof.Reservoir
import Idealize.ShloMosaic.Lib.Pipeline.Value
import Idealize.ShloMosaic.Lib.ValueLayout
import Idealize.ShloMosaic.Lib.StableHlo.Run
import Idealize.ShloMosaic.Lib.Tactic

noncomputable section

namespace Cert.Reservoir.Columns

open Cert.KernelIdeal Cert.KernelIdeal.Gen
open Idealize.ShloMosaic Idealize.ShloMosaic.TcCoe Idealize.SL.Sem Idealize.ShloMosaic.ValueIdx Cert.Reservoir
open Idealize.ShloMosaic.Pipeline (Dat)

variable (m : (ℓ : Loc nD τ sig) → Buf (Elt Ideal) ℓ) (ρ : Dev nD → PrngReg)

/-- The reservoir step of the arrays the program is launched with, on core `c`. -/
abbrev step (c : Dev nD) : Buf (Elt Ideal) ((c : Thread nD τ).loc main_v6) :=
  newState (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem hz : (![0, 0] : Fin 2 → Nat) = fun _ => 0 := funext fun a => by fin_cases a <;> rfl

/-! ## The two arrays the host prepares -/

/-- The array the second window stages: the teacher signal scaled by one, shifted by zero, then transposed. -/
theorem teacher_T (c : Dev nD) : (V m c main_v4 : S64x128.Idx → EReal)
    = transpose S64x128 [1, 0] (addf (mulf (m ((c : Thread nD τ).loc main_arg1))
          (broadcastInDim S128x64 ![] bcast_S_S128x64 (constant (F := Ideal) S_ .f32 0x3F800000#32)))
        (broadcastInDim S128x64 ![] bcast_S_S128x64 (constant (F := Ideal) S_ .f32 0x00000000#32)))
      transposes_S128x64_S64x128_1_0 := by
  dsimp only [Gen.V, Gen.hostOps0]
  after_results

/-- The array the seventh window stages: the bias as a matrix of one row. -/
theorem bias_row (c : Dev nD) : (V m c main_v5 : S1x4096.Idx → EReal)
    = shapeCast S1x4096 (m ((c : Thread nD τ).loc main_arg6)) shapeCasts_S4096_S1x4096 := by
  dsimp only [Gen.V, Gen.hostOps0]
  after_results
  rfl

/-- A scalar constant spread over the teacher signal's shape reads that constant everywhere. -/
theorem splat_apply (w : BitVec 32) (i : S128x64.Idx) :
    broadcastInDim S128x64 ![] bcast_S_S128x64 (constant (F := Ideal) S_ .f32 w) i = Ideal.ofBits .f32 w :=
  broadcastInDim_apply _ bcast_S_S128x64 _ i ix0 (fun a => a.elim0)

/-- An array of the teacher signal's shape scaled by the constant one and shifted by the constant zero, at `(e, p)`. -/
theorem scaled_shifted_apply (yl : FVec Ideal S128x64 .f32) (e : Fin 128) (p : Fin 64) :
    addf (mulf yl (broadcastInDim S128x64 ![] bcast_S_S128x64 (constant (F := Ideal) S_ .f32 0x3F800000#32)))
        (broadcastInDim S128x64 ![] bcast_S_S128x64 (constant (F := Ideal) S_ .f32 0x00000000#32)) (ix2 e p)
      = teacher yl e p := by
  show yl (ix2 e p) * broadcastInDim S128x64 ![] bcast_S_S128x64 (constant (F := Ideal) S_ .f32 0x3F800000#32) (ix2 e p)
      + broadcastInDim S128x64 ![] bcast_S_S128x64 (constant (F := Ideal) S_ .f32 0x00000000#32) (ix2 e p)
    = yl (ix2 e p) * oneLit + zeroLit
  rw [splat_apply, splat_apply]

/-- The transposed teacher array at `(p, e)` is the teacher signal, as fed back, at output unit `e` and batch row `p`. -/
theorem teacher_T_apply (c : Dev nD) (p : Fin 64) (e : Fin 128) :
    (V m c main_v4 : S64x128.Idx → EReal) (ix2 p e) = teacher (m ((c : Thread nD τ).loc main_arg1)) e p := by
  rw [teacher_T]
  exact (transpose_ix2_apply _ transposes_S128x64_S64x128_1_0 p e).trans (scaled_shifted_apply _ e p)

/-- The one-row bias matrix at `(0, n)` is the bias at `n`. -/
theorem bias_row_apply (c : Dev nD) (n : Fin 4096) :
    (V m c main_v5 : S1x4096.Idx → EReal) (ix2 (0 : Fin 1) n) = (m ((c : Thread nD τ).loc main_arg6)) (ix1 n) := by
  rw [bias_row]
  exact shapeCast_a_1a_apply _ shapeCasts_S4096_S1x4096 (0 : Fin 1) n

/-! ## Where each block sits -/

/-- The printed index maps, decided over the eight points: the three resident arrays are always at block `(0, 0)`; the
    three weight matrices move down their rows, and the bias row along its columns, with the result's column block. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_7.index t (1 : Fin 2) ∧ win0_3.index t (1 : Fin 2) = 0
    ∧ win0_4.index t (0 : Fin 2) = win0_7.index t (1 : Fin 2) ∧ win0_4.index t (1 : Fin 2) = 0
    ∧ win0_5.index t (0 : Fin 2) = win0_7.index t (1 : Fin 2) ∧ win0_5.index t (1 : Fin 2) = 0
    ∧ win0_6.index t (0 : Fin 2) = 0 ∧ win0_6.index t (1 : Fin 2) = win0_7.index t (1 : Fin 2)
    ∧ win0_7.index t (0 : Fin 2) = 0 ∧ win0_7.index t (1 : Fin 2) ≤ 7 :=
  (by decide +kernel : ∀ t : Fin grid0.N, _)

/-- Every column block is some point's. -/
theorem idx_onto : ∀ b : Fin 8, ∃ t : Fin cfg0.N, win0_7.index t = ![0, b.val] :=
  (by decide +kernel : ∀ b : Fin 8, ∃ t : Fin grid0.N, win0_7.index t = ![0, b.val])

/-- The block of `u` at any point is `u`. -/
theorem read_u (c : Dev nD) (t : Fin cfg0.N) (p : Fin 64) (e : Fin 128) :
    iblk m c 0 t (ix2 p e) = (m ((c : Thread nD τ).loc main_arg0)) (ix2 p e) := by
  obtain ⟨h0, h1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 64 + 1 * p.val = p.val; omega
  | ⟨1, _⟩ => show win0_0.index t (1 : Fin 2) * 128 + 1 * e.val = e.val; omega

/-- The block of the transposed teacher array at any point is that array, which holds the teacher signal as fed back. -/
theorem read_teacher (c : Dev nD) (t : Fin cfg0.N) (p : Fin 64) (e : Fin 128) :
    iblk m c 1 t (ix2 p e) = teacher (m ((c : Thread nD τ).loc main_arg1)) e p := by
  obtain ⟨-, -, h0, h1, -⟩ := idx_facts t
  unfold iblk
  rw [View.read_apply]
  show (V m c main_v4 : S64x128.Idx → EReal) _ = _
  refine Eq.trans (congrArg (V m c main_v4 : S64x128.Idx → EReal) (funext fun a => Fin.ext ?_)) (teacher_T_apply m c p e)
  match a with
  | ⟨0, _⟩ => show win0_1.index t (0 : Fin 2) * 64 + 1 * p.val = p.val; omega
  | ⟨1, _⟩ => show win0_1.index t (1 : Fin 2) * 128 + 1 * e.val = e.val; omega

/-- The block of `x` at any point is `x`. -/
theorem read_x (c : Dev nD) (t : Fin cfg0.N) (p : Fin 64) (e : Fin 4096) :
    iblk m c 2 t (ix2 p e) = (m ((c : Thread nD τ).loc main_arg2)) (ix2 p e) := by
  obtain ⟨-, -, -, -, h0, h1, -⟩ := idx_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 64 + 1 * p.val = p.val; omega
  | ⟨1, _⟩ => show win0_2.index t (1 : Fin 2) * 4096 + 1 * e.val = e.val; omega

/-- Row `q` of the block of `W_in` at point `t` is row `n` of `W_in`, `n` the unit that column `q` of the tile stands for. -/
theorem read_win (c : Dev nD) (t : Fin cfg0.N) (q : Fin 512) (n : Fin 4096)
    (hn : n.val = win0_7.index t (1 : Fin 2) * 512 + q.val) (e : Fin 128) :
    iblk m c 3 t (ix2 q e) = (m ((c : Thread nD τ).loc main_arg3)) (ix2 n e) := by
  obtain ⟨-, -, -, -, -, -, h0, h1, -⟩ := idx_facts t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t (0 : Fin 2) * 512 + 1 * q.val = n.val; omega
  | ⟨1, _⟩ => show win0_3.index t (1 : Fin 2) * 128 + 1 * e.val = e.val; omega

/-- The same for `W_res`. -/
theorem read_wres (c : Dev nD) (t : Fin cfg0.N) (q : Fin 512) (n : Fin 4096)
    (hn : n.val = win0_7.index t (1 : Fin 2) * 512 + q.val) (e : Fin 4096) :
    iblk m c 4 t (ix2 q e) = (m ((c : Thread nD τ).loc main_arg4)) (ix2 n e) := by
  obtain ⟨-, -, -, -, -, -, -, -, h0, h1, -⟩ := idx_facts t
  unfold iblk
  rw [View.read_apply]
  show V m c main_arg4 _ = _
  rw [V_main_arg4]
  refine congrArg (m ((c : Thread nD τ).loc main_arg4)) (funext fun a => Fin.ext ?_)
  match a with
  | ⟨0, _⟩ => show win0_4.index t (0 : Fin 2) * 512 + 1 * q.val = n.val; omega
  | ⟨1, _⟩ => show win0_4.index t (1 : Fin 2) * 4096 + 1 * e.val = e.val; omega

/-- The same for `W_out`. -/
theorem read_wout (c : Dev nD) (t : Fin cfg0.N) (q : Fin 512) (n : Fin 4096)
    (hn : n.val = win0_7.index t (1 : Fin 2) * 512 + q.val) (e : Fin 128) :
    iblk m c 5 t (ix2 q e) = (m ((c : Thread nD τ).loc main_arg5)) (ix2 n e) := by
  obtain ⟨-, -, -, -, -, -, -, -, -, -, h0, h1, -⟩ := idx_facts t
  unfold iblk
  rw [View.read_apply]
  show V m c main_arg5 _ = _
  rw [V_main_arg5]
  refine congrArg (m ((c : Thread nD τ).loc main_arg5)) (funext fun a => Fin.ext ?_)
  match a with
  | ⟨0, _⟩ => show win0_5.index t (0 : Fin 2) * 512 + 1 * q.val = n.val; omega
  | ⟨1, _⟩ => show win0_5.index t (1 : Fin 2) * 128 + 1 * e.val = e.val; omega

/-- Entry `q` of the block of the bias row at point `t` is the bias of unit `n`. -/
theorem read_bias (c : Dev nD) (t : Fin cfg0.N) (q : Fin 512) (n : Fin 4096)
    (hn : n.val = win0_7.index t (1 : Fin 2) * 512 + q.val) :
    iblk m c 6 t (ix2 (0 : Fin 1) q) = (m ((c : Thread nD τ).loc main_arg6)) (ix1 n) := by
  obtain ⟨-, -, -, -, -, -, -, -, -, -, -, -, h0, h1, -⟩ := idx_facts t
  unfold iblk
  rw [View.read_apply]
  show (V m c main_v5 : S1x4096.Idx → EReal) _ = _
  refine Eq.trans (congrArg (V m c main_v5 : S1x4096.Idx → EReal) (funext fun a => Fin.ext ?_)) (bias_row_apply m c n)
  match a with
  | ⟨0, _⟩ => show win0_6.index t (0 : Fin 2) * 1 + 1 * 0 = 0; omega
  | ⟨1, _⟩ => show win0_6.index t (1 : Fin 2) * 512 + 1 * q.val = n.val; omega

/-! ## A tile is a block of the reservoir step -/

/-- Entry `(p, q)` of the tile computed at point `t` is entry `(p, n)` of the reservoir step, `n = 512·(column block of t) + q`:
    the tile's three sums are the step's, term by term, and its bias entry the step's. -/
theorem tile_eq (c : Dev nD) (t : Fin cfg0.N) (p : Fin 64) (q : Fin 512) (n : Fin 4096)
    (hn : n.val = win0_7.index t (1 : Fin 2) * 512 + q.val) :
    k0_pay1 (F := Ideal) (iblk m c 0 t) (iblk m c 1 t) (iblk m c 2 t) (iblk m c 3 t) (iblk m c 4 t) (iblk m c 5 t)
        (iblk m c 6 t) (ix2 p q)
      = step m c (ix2 p n) := by
  refine (Tile.payload_apply (iblk m c 0 t) (iblk m c 1 t) (iblk m c 2 t) (iblk m c 3 t) (iblk m c 4 t) (iblk m c 5 t)
    (iblk m c 6 t) p q).trans ?_
  show _ = zeroLit + oneLit * Ideal.tanh (preact _ _ _ _ _ _ _ p n)
  unfold preact
  refine congrArg (fun z => zeroLit + oneLit * Ideal.tanh z) ?_
  refine congrArg₂ (· + ·) (congrArg₂ (· + ·) (congrArg₂ (· + ·) ?_ ?_) ?_) ?_
  · exact Finset.sum_congr rfl fun e _ => congrArg₂ (· * ·) (read_u m c t p e) (read_win m c t q n hn e)
  · exact Finset.sum_congr rfl fun e _ => congrArg₂ (· * ·) (read_x m c t p e) (read_wres m c t q n hn e)
  · exact Finset.sum_congr rfl fun e _ => congrArg₂ (· * ·) (read_teacher m c t p e) (read_wout m c t q n hn e)
  · exact read_bias m c t q n hn

/-- WHAT POINT `t` WRITES BACK is block `t` of the reservoir step. -/
theorem flushed_eq (c : Dev nD) (t : Fin cfg0.N) :
    (dats m 0 c).flushed 7 t = ((cfg0.win 7).blk t).view.read (Elt Ideal) (step m c) := by
  rw [Cert.KernelIdeal.Value.flushed7]
  unfold out0_7
  rw [View.canon_unit_zero hz]
  simp only [View.ld_unit_zero (S := S64x128) hz, View.ld_unit_zero (S := S64x4096) hz,
    View.ld_unit_zero (S := S512x128) hz, View.ld_unit_zero (S := S512x4096) hz, View.ld_unit_zero (S := S1x512) hz]
  funext j
  obtain ⟨p, q, rfl⟩ : ∃ (p : Fin 64) (q : Fin 512), j = ix2 p q := ⟨j 0, j 1, eq_ix2 j⟩
  show k0_pay1 (F := Ideal) (iblk m c 0 t) (iblk m c 1 t) (iblk m c 2 t) (iblk m c 3 t) (iblk m c 4 t) (iblk m c 5 t)
      (iblk m c 6 t) (ix2 p q) = step m c (((cfg0.win 7).blk t).view.emb (ix2 p q))
  obtain ⟨-, -, -, -, -, -, -, -, -, -, -, -, -, -, h0, h1⟩ := idx_facts t
  have hq : q.val < 512 := q.isLt
  have hidx : ((cfg0.win 7).blk t).view.emb (ix2 p q)
      = ix2 p (⟨win0_7.index t (1 : Fin 2) * 512 + q.val, by omega⟩ : Fin 4096) :=
    funext fun a => Fin.ext (by
      match a with
      | ⟨0, _⟩ => show win0_7.index t (0 : Fin 2) * 64 + 1 * p.val = p.val; omega
      | ⟨1, _⟩ => show win0_7.index t (1 : Fin 2) * 512 + 1 * q.val = win0_7.index t (1 : Fin 2) * 512 + q.val; omega)
  rw [hidx]
  exact tile_eq m c t p q _ rfl

/-! ## The tiles cover the array -/

/-- An index of the result is in point `t`'s block iff each coordinate is in the block's range on its axis. -/
theorem mem_blk (t : Fin cfg0.N) (i : S64x4096.Idx) :
    i ∈ ((cfg0.win 7).blk t).view.set ↔ ∀ a : Fin 2, win0_7.index t a * S64x512.size a ≤ (i a).val
      ∧ (i a).val < win0_7.index t a * S64x512.size a + S64x512.size a := by
  show i ∈ ((View.whole main_v6).slice (win0_7.rect t)).set ↔ _
  rw [View.set_slice_whole, Rect.mem_set_unit]
  exact Iff.rfl

/-- Column `n` of the result lies in the tile of column block `n / 512`. -/
theorem cover (i : S64x4096.Idx) :
    ∃ t : Fin cfg0.N, (cfg0.win 7).flush t = true ∧ i ∈ ((cfg0.win 7).blk t).view.set := by
  have hi0 : (i 0).val < 64 := (i 0).isLt
  have hi1 : (i 1).val < 4096 := (i 1).isLt
  obtain ⟨t, ht⟩ := idx_onto ⟨(i 1).val / 512, by omega⟩
  have q0 : win0_7.index t (0 : Fin 2) = 0 := congrFun ht 0
  have q1 : win0_7.index t (1 : Fin 2) = (i 1).val / 512 := congrFun ht 1
  refine ⟨t, flush0_7 t, ?_⟩
  rw [mem_blk]
  intro a
  match a with
  | ⟨0, _⟩ => show win0_7.index t (0 : Fin 2) * 64 ≤ (i 0).val ∧ (i 0).val < win0_7.index t (0 : Fin 2) * 64 + 64; omega
  | ⟨1, _⟩ => show win0_7.index t (1 : Fin 2) * 512 ≤ (i 1).val ∧ (i 1).val < win0_7.index t (1 : Fin 2) * 512 + 512; omega

/-- THE ARRAY after the run is the reservoir step. -/
theorem final (c : Dev nD) : (dats m 0 c).arrAt 7 cfg0.N = step m c :=
  (dats m 0 c).arrAt_eq_of_cover 7 (step m c) (fun t _ => flushed_eq m c t) cover

/-- The kernel's run, read: the result array at the reservoir step of the arguments, the arguments unchanged. -/
theorem run : θ_run defs (onTc (τ := τ) (main (F := Ideal))) ⟨m, fun _ => 0, ρ⟩ fun r => ∀ c : Dev nD,
      r.2.mem ((c : Thread nD τ).loc main_v6) = step m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.Reservoir.Columns

end
-- ==== Proof.HostForm.lean ====
/-
  The reference computes the reservoir step: its last stage, read entry by entry, is `Reservoir.newState`.

  The reference contracts `u` and `x` against the LAST axis of `W_in` and `W_res` (so entry `(p, n)` is row `p` against
  row `n`), and contracts the teacher signal's FIRST axis against the last axis of `W_out` (column `p` of the teacher
  signal against row `n`); it adds the three in the order input, recurrent, teacher, adds the bias along the units,
  and ends with `0·x(p,n) + 1·tanh(…)`. The one step beyond reading is that `0·x(p,n)` is `0` (`Reservoir.leak_term`).
-/
import proofs.«155331_j37580963840555_1_alg».proof.Proof.Gen.ReferenceIdeal.Read
import proofs.«155331_j37580963840555_1_alg».proof.Proof.Reservoir

noncomputable section

namespace Cert.Reservoir.HostForm

open Cert.ReferenceIdeal Cert.ReferenceIdeal.Read
open Idealize.ShloMosaic Idealize.ShloMosaic.ValueIdx Cert.Reservoir

/-! The operand indices of the three contractions and of the bias, at entry `(p, n)`, by their coordinates. -/

theorem l4 (p : Fin 64) (n : Fin 4096) (k : Fin 128) : lidx_main_v4 (ix2 p n) k = ix2 p k :=
  funext fun a => Fin.ext (by match a with | ⟨0, _⟩ => rfl | ⟨1, _⟩ => rfl)
theorem r4 (p : Fin 64) (n : Fin 4096) (k : Fin 128) : ridx_main_v4 (ix2 p n) k = ix2 n k :=
  funext fun a => Fin.ext (by match a with | ⟨0, _⟩ => rfl | ⟨1, _⟩ => rfl)
theorem l5 (p : Fin 64) (n : Fin 4096) (k : Fin 4096) : lidx_main_v5 (ix2 p n) k = ix2 p k :=
  funext fun a => Fin.ext (by match a with | ⟨0, _⟩ => rfl | ⟨1, _⟩ => rfl)
theorem r5 (p : Fin 64) (n : Fin 4096) (k : Fin 4096) : ridx_main_v5 (ix2 p n) k = ix2 n k :=
  funext fun a => Fin.ext (by match a with | ⟨0, _⟩ => rfl | ⟨1, _⟩ => rfl)
theorem l7 (p : Fin 64) (n : Fin 4096) (k : Fin 128) : lidx_main_v7 (ix2 p n) k = ix2 k p :=
  funext fun a => Fin.ext (by match a with | ⟨0, _⟩ => rfl | ⟨1, _⟩ => rfl)
theorem r7 (p : Fin 64) (n : Fin 4096) (k : Fin 128) : ridx_main_v7 (ix2 p n) k = ix2 n k :=
  funext fun a => Fin.ext (by match a with | ⟨0, _⟩ => rfl | ⟨1, _⟩ => rfl)
theorem b9 (p : Fin 64) (n : Fin 4096) : idx_main_v9 (idx_main_v10 (ix2 p n)) = ix1 n :=
  funext fun a => Fin.ext (by match a with | ⟨0, _⟩ => rfl)

/-- The teacher signal after the reference's scale by one and shift by zero, at `(o, p)`. -/
theorem teacher_apply (yl : (⟨S128x64, .f32⟩ : BufTy).Contents (Elt Ideal)) (o : Fin 128) (p : Fin 64) :
    val_main_v3 (F := Ideal) yl (ix2 o p) = teacher yl o p := by
  rw [val_main_v3_apply, val_main_v1_apply, val_main_v0_apply, val_main_cst_apply, val_main_v2_apply,
    val_main_cst_0_apply]
  rfl

/-- THE REFERENCE IS THE RESERVOIR STEP. -/
theorem reference_eq (x0 : (⟨S64x128, .f32⟩ : BufTy).Contents (Elt Ideal)) (x1 : (⟨S128x64, .f32⟩ : BufTy).Contents (Elt Ideal))
    (x2 : (⟨S64x4096, .f32⟩ : BufTy).Contents (Elt Ideal)) (x3 : (⟨S4096x128, .f32⟩ : BufTy).Contents (Elt Ideal))
    (x4 : (⟨S4096x4096, .f32⟩ : BufTy).Contents (Elt Ideal)) (x5 : (⟨S4096x128, .f32⟩ : BufTy).Contents (Elt Ideal))
    (x6 : (⟨S4096, .f32⟩ : BufTy).Contents (Elt Ideal)) :
    val_main_v17 (F := Ideal) x0 x1 x2 x3 x4 x5 x6 = newState x0 x1 x2 x3 x4 x5 x6 := by
  funext i
  obtain ⟨p, n, rfl⟩ : ∃ (p : Fin 64) (n : Fin 4096), i = ix2 p n := ⟨i 0, i 1, eq_ix2 i⟩
  rw [val_main_v17_apply, val_main_v13_apply, val_main_v12_apply, val_main_cst_1_apply, val_main_v16_apply,
    val_main_v15_apply, val_main_cst_2_apply, val_main_v14_apply, val_main_v11_apply, val_main_v8_apply,
    val_main_v6_apply, val_main_v4_apply, val_main_v5_apply, val_main_v7_apply, val_main_v10_apply,
    val_main_v9_apply]
  simp only [l4, r4, l5, r5, l7, r7, b9, teacher_apply]
  exact leak_term _ _

end Cert.Reservoir.HostForm

end
-- ==== Proof.lean ====
/-
  One step of an echo state network's reservoir: a tiled kernel against a plain formulation, equal on the extended reals.

  Both programs compute, for batch row `p` and reservoir unit `n`,

      tanh( (Σₑ u(p,e)·W_in(n,e) + Σₑ x(p,e)·W_res(n,e)) + Σₑ y(e,p)·W_out(n,e) + b(n) ),    y = y_last·1 + 0,

  the kernel as `0 + 1·tanh(…)` and the reference as `0·x(p,n) + 1·tanh(…)` (the leak rate is zero).
  * The kernel works on eight tiles of 512 units. On each it transposes 512 rows of every weight matrix and multiplies
    on the left by `u`, by `x` and by the transposed teacher signal, rounding the factors on the way in — the identity on
    the extended reals — into zero accumulators; it adds the products in the same order as the reference and the bias row
    repeated down the batch. Entry `(p, q)` of tile `t` is therefore entry `(p, 512·t + q)` of the formula above, and
    the eight tiles fill the 4096 columns (Proof/Tile.lean, Proof/Columns.lean).
  * The reference contracts against the last axis of each weight matrix directly (Proof/HostForm.lean).
  * The two differ only by `0·x(p,n)`, which is `0` for every extended real, so no finiteness of the inputs is used.
  The specification both sides are proved equal to is Proof/Reservoir.lean's `newState`.
-/
import proofs.«155331_j37580963840555_1_alg».proof.Defs
import proofs.«155331_j37580963840555_1_alg».proof.Proof.Gen.Kernel
import proofs.«155331_j37580963840555_1_alg».proof.Proof.Gen.Kernel.Frame
import proofs.«155331_j37580963840555_1_alg».proof.Proof.Gen.KernelIdeal
import proofs.«155331_j37580963840555_1_alg».proof.Proof.Gen.KernelIdeal.Frame
import proofs.«155331_j37580963840555_1_alg».proof.Proof.Gen.KernelIdeal.Value
import proofs.«155331_j37580963840555_1_alg».proof.Proof.Gen.ReferenceIdeal
import proofs.«155331_j37580963840555_1_alg».proof.Proof.Gen.ReferenceIdeal.Run
import proofs.«155331_j37580963840555_1_alg».proof.Proof.Gen.ReferenceIdeal.Read
import proofs.«155331_j37580963840555_1_alg».proof.Proof.Gen.Pre_finite_inputs
import proofs.«155331_j37580963840555_1_alg».proof.Proof.Columns
import proofs.«155331_j37580963840555_1_alg».proof.Proof.HostForm

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the value of its result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- On the extended reals, from memories that agree on the seven arrays, the kernel's result array and the reference's
    both end holding the reservoir step of those arrays. -/
theorem algebraic : Cert.algebraic_KernelIdeal_ReferenceIdeal := by
  intro m ρ m' ρ' _ hagree
  refine ⟨fun c => Cert.Reservoir.Columns.step m c, Cert.Reservoir.Columns.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  exact (Cert.ReferenceIdeal.Read.val_main_v17_eq _ _ _ _ _ _ _).trans
    (Cert.Reservoir.HostForm.reference_eq _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
